-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_arg10 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S640000x128 : Shape := ⟨2, ![640000, 128]⟩
abbrev S100000x1 : Shape := ⟨2, ![100000, 1]⟩
abbrev S1x128 : Shape := ⟨2, ![1, 128]⟩
abbrev S2000x128 : Shape := ⟨2, ![2000, 128]⟩

abbrev nBuf : Space → Nat
  | .hbm => 87
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .f32⟩
  | .hbm, ⟨16, _⟩ => ⟨S640000, .f32⟩
  | .hbm, ⟨17, _⟩ => ⟨S_, .f32⟩
  | .hbm, ⟨18, _⟩ => ⟨S100000, .f32⟩
  | .hbm, ⟨19, _⟩ => ⟨S640000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x128, .f32⟩
  | .hbm, ⟨36, _⟩ => ⟨S_, .f32⟩
  | .hbm, ⟨37, _⟩ => ⟨S100000x128, .f32⟩
  | .hbm, ⟨38, _⟩ => ⟨S640000x1, .i32⟩
  | .hbm, ⟨39, _⟩ => ⟨S100000x128, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S128x128, .f32⟩
  | .hbm, ⟨44, _⟩ => ⟨S128x128, .f32⟩
  | .hbm, ⟨45, _⟩ => ⟨S1x128, .f32⟩
  | .hbm, ⟨46, _⟩ => ⟨S100000x128, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x128, .f32⟩
  | .hbm, ⟨56, _⟩ => ⟨S_, .f32⟩
  | .hbm, ⟨57, _⟩ => ⟨S100000x128, .f32⟩
  | .hbm, ⟨58, _⟩ => ⟨S640000x1, .i32⟩
  | .hbm, ⟨59, _⟩ => ⟨S100000x128, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S128x128, .f32⟩
  | .hbm, ⟨64, _⟩ => ⟨S128x128, .f32⟩
  | .hbm, ⟨65, _⟩ => ⟨S1x128, .f32⟩
  | .hbm, ⟨66, _⟩ => ⟨S100000x128, .f32⟩
  | .hbm, ⟨67, _⟩ => ⟨S_, .i32⟩
  | .hbm, ⟨68, _⟩ => ⟨S640000, .i32⟩
  | .hbm, ⟨69, _⟩ => ⟨S640000, .i1⟩
  | .hbm, ⟨70, _⟩ => ⟨S_, .i32⟩
  | .hbm, ⟨71, _⟩ => ⟨S640000, .i32⟩
  | .hbm, ⟨72, _⟩ => ⟨S640000, .i32⟩
  | .hbm, ⟨73, _⟩ => ⟨S640000, .i32⟩
  | .hbm, ⟨74, _⟩ => ⟨S640000x1, .i32⟩
  | .hbm, ⟨75, _⟩ => ⟨S640000x128, .f32⟩
  | .hbm, ⟨76, _⟩ => ⟨S_, .f32⟩
  | .hbm, ⟨77, _⟩ => ⟨S100000x128, .f32⟩
  | .hbm, ⟨78, _⟩ => ⟨S640000x1, .i32⟩
  | .hbm, ⟨79, _⟩ => ⟨S100000x128, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S128x128, .f32⟩
  | .hbm, ⟨84, _⟩ => ⟨S128x128, .f32⟩
  | .hbm, ⟨85, _⟩ => ⟨S1x128, .f32⟩
  | .hbm, ⟨86, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S2000x128, .f32⟩
  | .local _ .vmem, ⟨26, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .f32⟩
  | .hbm, ⟨25, _⟩ => ⟨S100000x128, .f32⟩
  | .hbm, ⟨26, _⟩ => ⟨S640000x1, .i32⟩
  | .hbm, ⟨27, _⟩ => ⟨S100000x128, .f32⟩
  | .hbm, ⟨28, _⟩ => ⟨S_, .f32⟩
  | .hbm, ⟨29, _⟩ => ⟨S640000, .f32⟩
  | .hbm, ⟨30, _⟩ => ⟨S_, .f32⟩
  | .hbm, ⟨31, _⟩ => ⟨S100000, .f32⟩
  | .hbm, ⟨32, _⟩ => ⟨S640000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S128x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x128, .f32⟩
  | .hbm, ⟨60, _⟩ => ⟨S_, .f32⟩
  | .hbm, ⟨61, _⟩ => ⟨S100000x128, .f32⟩
  | .hbm, ⟨62, _⟩ => ⟨S640000x1, .i32⟩
  | .hbm, ⟨63, _⟩ => ⟨S100000x128, .f32⟩
  | .hbm, ⟨64, _⟩ => ⟨S_, .f32⟩
  | .hbm, ⟨65, _⟩ => ⟨S640000, .f32⟩
  | .hbm, ⟨66, _⟩ => ⟨S_, .f32⟩
  | .hbm, ⟨67, _⟩ => ⟨S100000, .f32⟩
  | .hbm, ⟨68, _⟩ => ⟨S640000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S128x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S128x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S_, .i32⟩
  | .hbm, ⟨88, _⟩ => ⟨S640000, .i32⟩
  | .hbm, ⟨89, _⟩ => ⟨S640000, .i1⟩
  | .hbm, ⟨90, _⟩ => ⟨S_, .i32⟩
  | .hbm, ⟨91, _⟩ => ⟨S640000, .i32⟩
  | .hbm, ⟨92, _⟩ => ⟨S640000, .i32⟩
  | .hbm, ⟨93, _⟩ => ⟨S640000, .i32⟩
  | .hbm, ⟨94, _⟩ => ⟨S640000x1, .i32⟩
  | .hbm, ⟨95, _⟩ => ⟨S640000x128, .f32⟩
  | .hbm, ⟨96, _⟩ => ⟨S_, .f32⟩
  | .hbm, ⟨97, _⟩ => ⟨S100000x128, .f32⟩
  | .hbm, ⟨98, _⟩ => ⟨S640000x1, .i32⟩
  | .hbm, ⟨99, _⟩ => ⟨S100000x128, .f32⟩
  | .hbm, ⟨100, _⟩ => ⟨S_, .f32⟩
  | .hbm, ⟨101, _⟩ => ⟨S640000, .f32⟩
  | .hbm, ⟨102, _⟩ => ⟨S_, .f32⟩
  | .hbm, ⟨103, _⟩ => ⟨S100000, .f32⟩
  | .hbm, ⟨104, _⟩ => ⟨S640000x1, .i32⟩
  | .hbm, ⟨105, _⟩ => ⟨S100000, .f32⟩
  | .hbm, ⟨106, _⟩ => ⟨S_, .f32⟩
  | .hbm, ⟨107, _⟩ => ⟨S100000, .f32⟩
  | .hbm, ⟨108, _⟩ => ⟨S100000, .f32⟩
  | .hbm, ⟨109, _⟩ => ⟨S100000x1, .f32⟩
  | .hbm, ⟨110, _⟩ => ⟨S100000x128, .f32⟩
  | .hbm, ⟨111, _⟩ => ⟨S100000x128, .f32⟩
  | .hbm, ⟨112, _⟩ => ⟨S128x128, .f32⟩
  | .hbm, ⟨113, _⟩ => ⟨S100000x128, .f32⟩
  | .hbm, ⟨114, _⟩ => ⟨S1x128, .f32⟩
  | .hbm, ⟨115, _⟩ => ⟨S100000x128, .f32⟩
  | .hbm, ⟨116, _⟩ => ⟨S100000x128, .f32⟩
  | .hbm, ⟨117, _⟩ => ⟨S128x128, .f32⟩
  | .hbm, ⟨118, _⟩ => ⟨S100000x128, .f32⟩
  | .hbm, ⟨119, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  Three stacked mean-aggregation graph layers over 100000 nodes, 640000 edges and 128 features, as functions of the
  argument arrays, at the ideal values (every float an extended real, every operation exact).

  One layer takes node features `h`, an edge table `e` (row 0 the sources, row 1 the destinations), two weight
  matrices and a bias. With `S(i, ·)` the sum of `h(src, ·)` over the edges whose destination is `i` and `c(i)` the
  number of those edges raised to at least one, the layer's entry `(i, j)` is

      (Σ_k (S(i,k) / c(i)) · Wl(j,k)  +  b(j))  +  Σ_k h(i,k) · Wr(j,k),

  followed on the first two layers by the maximum with zero. The aggregation `S` and the count `c` are kept as the
  host operations that compute them (a gather of rows, a scatter-add of rows, a scatter-add of ones, a maximum), named
  once here so that two programs that both apply them meet at the same term; nothing below looks inside them.

  A second arrangement of the same layer multiplies `S` by the reciprocal `1 / c(i)` instead of dividing by `c(i)`,
  adds the two products first and the bias last. The two agree at every extended real: dividing by a nonzero `c` is
  multiplying by its inverse, the count raised to one is never zero, and the sum of three terms does not depend on
  their order (`kLayer_eq_sage`). No finiteness of the inputs is used.
-/
import Idealize.ShloMosaic.PureOps.Ideal
import Idealize.ShloMosaic.PureOps.Ideal.Laws
import Idealize.ShloMosaic.Lib.IdealHost
import Idealize.ShloMosaic.Lib.ValueIdx
import Idealize.ShloMosaic.Lib.ValueLayout
import Idealize.ShloMosaic.Lib.Pipeline.Value

open scoped BigOperators

noncomputable section

namespace Cert.Sage

open Idealize.ShloMosaic Idealize.ShloMosaic.ValueIdx

/-! ## Shapes -/

abbrev SND : Shape := ⟨2, ![100000, 128]⟩
abbrev SN : Shape := ⟨1, ![100000]⟩
abbrev SN1 : Shape := ⟨2, ![100000, 1]⟩
abbrev SDD : Shape := ⟨2, ![128, 128]⟩
abbrev SD : Shape := ⟨1, ![128]⟩
abbrev S1D : Shape := ⟨2, ![1, 128]⟩
abbrev S2E : Shape := ⟨2, ![2, 640000]⟩
abbrev S1E : Shape := ⟨2, ![1, 640000]⟩
abbrev SE : Shape := ⟨1, ![640000]⟩
abbrev SE1 : Shape := ⟨2, ![640000, 1]⟩
abbrev SED : Shape := ⟨2, ![640000, 128]⟩
abbrev S0 : Shape := ⟨0, ![]⟩

/-! ## The shared host chain: sources, destinations, aggregation, count -/

/-- Row `r` of the edge table as a vector of 640000 index words. -/
def edgeRow (r : Nat) (e : IVec S2E 32) (h : S2E.Slices ![r, 0] S1E) : IVec SE 32 :=
  shapeCast SE (extractStridedSlice S1E ![r, 0] e h) (by decide)

/-- The source column: a negative index word is moved up by the number of nodes, then the vector is laid as a column. -/
def srcCol (e : IVec S2E 32) : IVec SE1 32 :=
  broadcastInDim SE1 ![0] (by decide)
    (select (cmpi .slt (edgeRow 0 e (by decide)) (broadcastInDim SE ![] (by decide) (constantI S0 32 0#32)))
      (addi (edgeRow 0 e (by decide)) (broadcastInDim SE ![] (by decide) (constantI S0 32 100000#32)))
      (edgeRow 0 e (by decide)))

/-- The destination column. -/
def dstCol (e : IVec S2E 32) : IVec SE1 32 :=
  broadcastInDim SE1 ![0] (by decide) (edgeRow 1 e (by decide))

/-- The aggregation: row `i` is the sum of the rows `h(src)` over the edges whose destination is `i`, as the host
    computes it (gather the source rows, scatter-add them into zeros at the destinations). -/
def agg (g : GatherDims SND SE1 SED) (sc : ScatterDims SND SE1 SED) (h : FVec Ideal SND .f32) (e : IVec S2E 32) :
    FVec Ideal SND .f32 :=
  Host.scatterAdd (F := Ideal) sc (broadcastInDim SND ![] (by decide) (constant (F := Ideal) S0 .f32 0x00000000#32)) (dstCol e)
    (Host.gather g h (srcCol e))

/-- The number of edges into each node (ones scatter-added into zeros at the destinations). -/
def cntRaw (sc1 : ScatterDims SN SE1 SE) (e : IVec S2E 32) : FVec Ideal SN .f32 :=
  Host.scatterAdd (F := Ideal) sc1 (broadcastInDim SN ![] (by decide) (constant (F := Ideal) S0 .f32 0x00000000#32)) (dstCol e)
    (broadcastInDim SE ![] (by decide) (constant (F := Ideal) S0 .f32 0x3F800000#32))

/-- The all-ones vector over the nodes. -/
def onesN : FVec Ideal SN .f32 := broadcastInDim SN ![] (by decide) (constant (F := Ideal) S0 .f32 0x3F800000#32)

/-- The count raised to at least one. -/
def cnt (sc1 : ScatterDims SN SE1 SE) (e : IVec S2E 32) : FVec Ideal SN .f32 := maximumf (cntRaw sc1 e) onesN

/-- A per-node vector repeated along the feature axis: entry `(i, j)` is `v(i)`. -/
def colOf (v : FVec Ideal SN .f32) : FVec Ideal SND .f32 :=
  broadcastInDim SND ![0, 1] (by decide) (broadcastInDim SN1 ![0] (by decide) v)

theorem colOf_apply (v : FVec Ideal SN .f32) (i : Fin 100000) (j : Fin 128) : colOf v (ix2 i j) = v (ix1 i) := by
  unfold colOf
  rw [broadcastInDim_apply ![0, 1] _ _ (ix2 i j) (ix2 i (0 : Fin 1)) (fun ax => ?_),
    broadcastInDim_apply ![0] _ v (ix2 i (0 : Fin 1)) (ix1 i) (fun ax => ?_)]
  · match ax with
    | ⟨0, _⟩ => rfl
  · match ax with
    | ⟨0, _⟩ => rfl
    | ⟨1, _⟩ => rfl

/-- The reciprocal of the raised count, per node. -/
def invCnt (c : FVec Ideal SN .f32) : FVec Ideal SN .f32 := Host.divf (F := Ideal) onesN c

/-! ## One layer, index by index -/

/-- The maximum with zero on the layers that have it. -/
def post (relu : Bool) (x : EReal) : EReal := if relu then max x (Ideal.ofBits .f32 0x00000000#32) else x

/-- Entry `(i, j)` of a layer: the aggregation divided by the count against the first weight matrix, plus the bias,
    plus the features against the second weight matrix. `wl`, `wr` are the weight matrices already transposed. -/
def sageAt (relu : Bool) (S : FVec Ideal SND .f32) (c : FVec Ideal SN .f32) (h : FVec Ideal SND .f32)
    (wl wr : FVec Ideal SDD .f32) (b : FVec Ideal SD .f32) (i : Fin 100000) (j : Fin 128) : EReal :=
  post relu ((∑ k : Fin 128, Ideal.div (S (ix2 i k)) (c (ix1 i)) * wl (ix2 k j) + b (ix1 j))
    + ∑ k : Fin 128, h (ix2 i k) * wr (ix2 k j))

def sage (relu : Bool) (S : FVec Ideal SND .f32) (c : FVec Ideal SN .f32) (h : FVec Ideal SND .f32)
    (wl wr : FVec Ideal SDD .f32) (b : FVec Ideal SD .f32) : FVec Ideal SND .f32 :=
  fun idx => sageAt relu S c h wl wr b (idx 0) (idx 1)

theorem sage_apply (relu : Bool) (S : FVec Ideal SND .f32) (c : FVec Ideal SN .f32) (h : FVec Ideal SND .f32)
    (wl wr : FVec Ideal SDD .f32) (b : FVec Ideal SD .f32) (i : Fin 100000) (j : Fin 128) :
    sage relu S c h wl wr b (ix2 i j) = sageAt relu S c h wl wr b i j := rfl

/-- The other arrangement: `A` is the aggregation already scaled, the two products are added first, the bias (a one-row
    array) last. -/
def kAt (relu : Bool) (A h : FVec Ideal SND .f32) (wl wr : FVec Ideal SDD .f32) (b2 : FVec Ideal S1D .f32)
    (i : Fin 100000) (j : Fin 128) : EReal :=
  post relu ((∑ k : Fin 128, A (ix2 i k) * wl (ix2 k j) + ∑ k : Fin 128, h (ix2 i k) * wr (ix2 k j))
    + b2 (ix2 (0 : Fin 1) j))

def kLayer (relu : Bool) (A h : FVec Ideal SND .f32) (wl wr : FVec Ideal SDD .f32) (b2 : FVec Ideal S1D .f32) :
    FVec Ideal SND .f32 :=
  fun idx => kAt relu A h wl wr b2 (idx 0) (idx 1)

theorem kLayer_apply (relu : Bool) (A h : FVec Ideal SND .f32) (wl wr : FVec Ideal SDD .f32) (b2 : FVec Ideal S1D .f32)
    (i : Fin 100000) (j : Fin 128) : kLayer relu A h wl wr b2 (ix2 i j) = kAt relu A h wl wr b2 i j := rfl

/-! ## The law that joins the two arrangements -/

/-- Multiplying by the reciprocal of a count raised to one is dividing by it, at every extended real. -/
theorem mul_inv_eq_div (s x : EReal) :
    s * Ideal.div (Ideal.ofBits .f32 0x3F800000#32) (max x (Ideal.ofBits .f32 0x3F800000#32))
      = Ideal.div s (max x (Ideal.ofBits .f32 0x3F800000#32)) := by
  rw [Ideal.ofBits_one_f32]
  have hne : max x (1 : EReal) ≠ 0 := (lt_of_lt_of_le zero_lt_one (le_max_right x 1)).ne'
  unfold Ideal.div
  rw [if_neg hne, if_neg hne, one_mul]

/-- The bias as a one-row array. -/
def biasRow (b : FVec Ideal SD .f32) : FVec Ideal S1D .f32 := shapeCast S1D b (by decide)

theorem biasRow_apply (b : FVec Ideal SD .f32) (j : Fin 128) : biasRow b (ix2 (0 : Fin 1) j) = b (ix1 j) := by
  unfold biasRow
  exact shapeCast_a_1a_apply b _ (0 : Fin 1) j

/-- The scaled aggregation a layer of the second arrangement is fed: the aggregation times the reciprocal count. -/
def scaled (S : FVec Ideal SND .f32) (c : FVec Ideal SN .f32) : FVec Ideal SND .f32 := mulf S (colOf (invCnt c))

/-- The two arrangements of a layer are one function, when the count is some vector raised to at least one. -/
theorem kLayer_eq_sage (relu : Bool) (S : FVec Ideal SND .f32) (x : FVec Ideal SN .f32) (h : FVec Ideal SND .f32)
    (wl wr : FVec Ideal SDD .f32) (b : FVec Ideal SD .f32) :
    kLayer relu (scaled S (maximumf x onesN)) h wl wr (biasRow b) = sage relu S (maximumf x onesN) h wl wr b := by
  funext idx
  obtain ⟨i, j, rfl⟩ : ∃ (i : Fin 100000) (j : Fin 128), idx = ix2 i j := ⟨idx 0, idx 1, eq_ix2 idx⟩
  rw [kLayer_apply, sage_apply]
  unfold kAt sageAt
  rw [biasRow_apply]
  have hA : ∀ k : Fin 128, scaled S (maximumf x onesN) (ix2 i k)
      = Ideal.div (S (ix2 i k)) (maximumf x onesN (ix1 i)) := by
    intro k
    unfold scaled
    rw [mulf_apply, colOf_apply]
    show S (ix2 i k) * Ideal.div (Ideal.ofBits .f32 0x3F800000#32) (max (x (ix1 i)) (Ideal.ofBits .f32 0x3F800000#32)) = _
    exact mul_inv_eq_div _ _
  simp only [hA]
  rw [add_right_comm]

/-! ## The layers composed -/

/-- A weight matrix transposed: entry `(k, j)` of the result is entry `(j, k)` of the matrix. -/
def tr (W : FVec Ideal SDD .f32) : FVec Ideal SDD .f32 := transpose SDD [1, 0] W (by decide)

/-- One layer as a function of the node features, the edge table, and the layer's two weight matrices and bias (the
    matrices as given, transposed here). -/
def layer (g : GatherDims SND SE1 SED) (sc : ScatterDims SND SE1 SED) (sc1 : ScatterDims SN SE1 SE) (relu : Bool)
    (h : FVec Ideal SND .f32) (e : IVec S2E 32) (Wl : FVec Ideal SDD .f32) (b : FVec Ideal SD .f32)
    (Wr : FVec Ideal SDD .f32) : FVec Ideal SND .f32 :=
  sage relu (agg g sc h e) (cnt sc1 e) h (tr Wl) (tr Wr) b

/-- The three layers: the first two followed by the maximum with zero, the last one not. -/
def net (g : GatherDims SND SE1 SED) (sc : ScatterDims SND SE1 SED) (sc1 : ScatterDims SN SE1 SE)
    (x : FVec Ideal SND .f32) (e : IVec S2E 32) (W1l : FVec Ideal SDD .f32) (b1 : FVec Ideal SD .f32)
    (W1r W2l : FVec Ideal SDD .f32) (b2 : FVec Ideal SD .f32) (W2r W3l : FVec Ideal SDD .f32)
    (b3 : FVec Ideal SD .f32) (W3r : FVec Ideal SDD .f32) : FVec Ideal SND .f32 :=
  layer g sc sc1 false (layer g sc sc1 true (layer g sc sc1 true x e W1l b1 W1r) e W2l b2 W2r) e W3l b3 W3r

/-- A layer in the second arrangement, fed the scaled aggregation and the bias as a row, is the layer. -/
theorem kLayer_eq_layer (g : GatherDims SND SE1 SED) (sc : ScatterDims SND SE1 SED) (sc1 : ScatterDims SN SE1 SE)
    (relu : Bool) (h : FVec Ideal SND .f32) (e : IVec S2E 32) (Wl : FVec Ideal SDD .f32) (b : FVec Ideal SD .f32)
    (Wr : FVec Ideal SDD .f32) :
    kLayer relu (scaled (agg g sc h e) (cnt sc1 e)) h (tr Wl) (tr Wr) (biasRow b) = layer g sc sc1 relu h e Wl b Wr :=
  kLayer_eq_sage relu (agg g sc h e) (cntRaw sc1 e) h _ _ b

end Cert.Sage

end
-- ==== Proof.KernelRun.lean ====
/-
  The kernel program's run with its result named.

  Every weakly fair execution of the program from a memory with zero counters terminates without a fault; at the end
  each argument array is as launched and the result array holds the contents the last region's write-backs leave,
  `W6 m ρ c` at the result's buffer: the buffer contents at the last segment boundary of the fold through the
  program (host stretch, region, host stretch, region, host stretch, region). This is the launch theorem for a
  program of several regions applied to the program's segments, reading one more buffer of the final thread state
  than the frame does.
-/
import proofs.«127042_j63058709840617_1_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result at the last boundary's contents, the arguments as launched. -/
theorem run : θ_run defs (onTc (τ := τ) (main (F := F))) ⟨m, fun _ => 0, ρ⟩ (fun r => ∀ c : Dev nD,
      r.2.mem ((c.tc : Thread nD τ).loc main_v62) = W6 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v62 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.NamedRun

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.Region0.lean ====
/-
  What the first of the kernel's three regions leaves in its output array.

  The region visits 50 grid points. At point `t` it holds rows `2000·t … 2000·t + 1999` of the scaled aggregation `A`
  and of the node features `h` (two blocks of 2000 rows by 128 columns), and the whole of the two weight matrices
  `wl`, `wr` (128 by 128) and of the bias row `b` (1 by 128). For a row `p` of the block and a column `j` it forms

      (Σ_k A(2000·t + p, k) · wl(k, j)  +  Σ_k h(2000·t + p, k) · wr(k, j))  +  b(0, j),

  takes the maximum with zero,

  and writes the 2000 by 128 result to rows `2000·t … 2000·t + 1999` of the output. At the ideal values the change
  of float format before each product is the identity, and a product into a zero accumulator is the plain sum over
  `k`. Row `r` of the output is written by point `r / 2000` and by no other, and the 50 blocks fill the 100000 rows,
  so the output array ends as the layer in the kernel's arrangement (`Cert.Sage.kLayer true`) of the five arrays
  the region finds.
-/
import proofs.«127042_j63058709840617_1_alg».proof.Proof.Gen.KernelIdeal.Frame
import proofs.«127042_j63058709840617_1_alg».proof.Proof.Spec
import proofs.«127042_j63058709840617_1_alg».proof.Proof.LibMatmul
import Idealize.ShloMosaic.Lib.Pipeline.Value
import Idealize.ShloMosaic.Lib.ValueIdx
import Idealize.ShloMosaic.Lib.ValueLayout

open scoped BigOperators

noncomputable section

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

/-! ## The arithmetic of one block, at a row and a column -/

/-- The contraction of the body's two products is the plain one: axis 1 of a 2000 by 128 block against axis 0 of a
    128 by 128 matrix, no batch axis. -/
theorem contraction_plain0 : dot_S2000x128_S128x128_S2000x128_1_0_0_1_n_n = DotDims.plain 2000 128 128 := rfl

/-- Entry `(p, j)` of what the body computes from its five blocks: the two products added, then the bias row, then the
    maximum with zero. -/
theorem payload0_apply (x0 x1 : Vec Ideal S2000x128 .f32) (x2 x4 : Vec Ideal S128x128 .f32) (x3 : Vec Ideal S1x128 .f32)
    (p : Fin 2000) (j : Fin 128) :
    k0_pay1 (F := Ideal) x0 x1 x2 x4 x3 (ix2 p j)
      = Cert.Sage.post true ((∑ k : Fin 128, x0 (ix2 p k) * x2 (ix2 k j) + ∑ k : Fin 128, x1 (ix2 p k) * x4 (ix2 k j))
          + x3 (ix2 (0 : Fin 1) j)) := by
  unfold k0_pay1
  simp only [shapeCast_self]
  rw [contraction_plain0]
  unfold Cert.Sage.post
  rw [if_pos rfl]
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) ?_ ?_
    · exact Cert.MatOps.matmul_plain_zero_apply none _ _ p j
    · exact Cert.MatOps.matmul_plain_zero_apply none _ _ p j
  · exact broadcastTo_1b_ab_apply x3 _ p j

/-- The same entry, once it is known where the blocks sit in their arrays: at block index `y` and array index `i` in
    the same column, when row `y 0` of the two row blocks is row `i 0` of `A` and of `h`, and the weight and bias blocks
    are the whole arrays, the body's entry is the layer's entry `i`. -/
theorem payload0_block (x0 x1 : Vec Ideal S2000x128 .f32) (x2 x4 : Vec Ideal S128x128 .f32) (x3 : Vec Ideal S1x128 .f32)
    (A h : FVec Ideal Cert.Sage.SND .f32) (wl wr : FVec Ideal Cert.Sage.SDD .f32) (b2 : FVec Ideal Cert.Sage.S1D .f32)
    (y : S2000x128.Idx) (i : Cert.Sage.SND.Idx)
    (hj : (i 1).val = (y 1).val)
    (h0 : ∀ k : Fin 128, x0 (ix2 (y 0) k) = A (ix2 (i 0) k))
    (h1 : ∀ k : Fin 128, x1 (ix2 (y 0) k) = h (ix2 (i 0) k))
    (h2 : x2 = wl) (h4 : x4 = wr) (h3 : x3 = b2) :
    k0_pay1 (F := Ideal) x0 x1 x2 x4 x3 y = Cert.Sage.kLayer true A h wl wr b2 i := by
  have ey : y = ix2 (y 0) (y 1) := eq_ix2 y
  have e1 : i 1 = y 1 := Fin.ext hj
  subst h2 h4 h3
  show _ = Cert.Sage.kAt true A h x2 x4 x3 (i 0) (i 1)
  rw [e1]
  unfold Cert.Sage.kAt
  simp only [← h0, ← h1]
  rw [← payload0_apply x0 x1 x2 x4 x3 (y 0) (y 1)]
  exact congrArg _ ey

/-! ## From the blocks to the array -/

variable (V : (c : Dev nD) → (b : Ref sig .tc) → Buf (Elt Ideal) ((c : Thread nD τ).loc b))

/-- The body reads and writes its blocks whole: every access starts at offset zero on both axes. -/
theorem offsets_zero0 : (![0, 0] : Fin 2 → Nat) = fun _ => 0 := funext fun a => by fin_cases a <;> rfl

/-- The block each window holds at grid point `t`: the two row-block inputs and the output are at block row `t`, column
    block 0; the weight matrices and the bias row are at block `(0, 0)`, the whole array. Decided over the 50 points. -/
theorem block_indices0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the layer of the arrays the region finds. An entry of a block sits in its
    array at (block index × block size + position inside the block) on each axis; the inputs' row blocks are at the
    output's block row, so row `p` of each is the array's row `2000·t + p`, and the three whole-array blocks are their
    arrays. -/
theorem written_block0 (c : Dev nD) (t : Fin cfg0.N) :
    (dat0 (F := Ideal) V c).flushed 5 t = ((cfg0.win 5).blk t).view.read (Elt Ideal)
      (Cert.Sage.kLayer true (V c main_v24) (V c main_arg0) (V c main_v25) (V c main_v26) (V c main_v27)) := by
  show (cfg0.win 5).cut (grid0.coords t) ((dat0 V c).after 5 t) = _
  rw [after0_5]
  unfold out0_5
  rw [View.canon_unit_zero offsets_zero0]
  simp only [View.ld_unit_zero (S := S2000x128) offsets_zero0, View.ld_unit_zero (S := S128x128) offsets_zero0,
    View.ld_unit_zero (S := S1x128) offsets_zero0]
  obtain ⟨a00, a01, a10, a11, a20, a21, a30, a31, a40, a41, a50, a51⟩ := block_indices0 t
  funext y
  refine payload0_block (iblk0 V c 0 t) (iblk0 V c 1 t) (iblk0 V c 2 t) (iblk0 V c 4 t) (iblk0 V c 3 t)
    (V c main_v24) (V c main_arg0) (V c main_v25) (V c main_v26) (V c main_v27) y (((cfg0.win 5).blk t).view.emb y)
    ?_ ?_ ?_ ?_ ?_ ?_
  · show win0_5.index t (1 : Fin 2) * 128 + 1 * (y 1).val = (y 1).val
    rw [a51]; omega
  · intro k
    show V c main_v24 (((cfg0.win 0).blk t).view.emb (ix2 (y 0) k)) = V c main_v24 (ix2 (((cfg0.win 5).blk t).view.emb y 0) k)
    refine congrArg _ (funext fun a => Fin.ext ?_)
    match a with
    | ⟨0, _⟩ => show win0_0.index t (0 : Fin 2) * 2000 + 1 * (y 0).val = win0_5.index t (0 : Fin 2) * 2000 + 1 * (y 0).val; rw [a00, a50]
    | ⟨1, _⟩ => show win0_0.index t (1 : Fin 2) * 128 + 1 * k.val = k.val; rw [a01]; omega
  · intro k
    show V c main_arg0 (((cfg0.win 1).blk t).view.emb (ix2 (y 0) k)) = V c main_arg0 (ix2 (((cfg0.win 5).blk t).view.emb y 0) k)
    refine congrArg _ (funext fun a => Fin.ext ?_)
    match a with
    | ⟨0, _⟩ => show win0_1.index t (0 : Fin 2) * 2000 + 1 * (y 0).val = win0_5.index t (0 : Fin 2) * 2000 + 1 * (y 0).val; rw [a10, a50]
    | ⟨1, _⟩ => show win0_1.index t (1 : Fin 2) * 128 + 1 * k.val = k.val; rw [a11]; omega
  · funext x
    show V c main_v25 (((cfg0.win 2).blk t).view.emb x) = V c main_v25 x
    refine congrArg _ (funext fun a => Fin.ext ?_)
    match a with
    | ⟨0, _⟩ => show win0_2.index t (0 : Fin 2) * 128 + 1 * (x 0).val = (x 0).val; rw [a20]; omega
    | ⟨1, _⟩ => show win0_2.index t (1 : Fin 2) * 128 + 1 * (x 1).val = (x 1).val; rw [a21]; omega
  · funext x
    show V c main_v26 (((cfg0.win 4).blk t).view.emb x) = V c main_v26 x
    refine congrArg _ (funext fun a => Fin.ext ?_)
    match a with
    | ⟨0, _⟩ => show win0_4.index t (0 : Fin 2) * 128 + 1 * (x 0).val = (x 0).val; rw [a40]; omega
    | ⟨1, _⟩ => show win0_4.index t (1 : Fin 2) * 128 + 1 * (x 1).val = (x 1).val; rw [a41]; omega
  · funext x
    show V c main_v27 (((cfg0.win 3).blk t).view.emb x) = V c main_v27 x
    refine congrArg _ (funext fun a => Fin.ext ?_)
    match a with
    | ⟨0, _⟩ => show win0_3.index t (0 : Fin 2) * 1 + 1 * (x 0).val = (x 0).val; rw [a30]; omega
    | ⟨1, _⟩ => show win0_3.index t (1 : Fin 2) * 128 + 1 * (x 1).val = (x 1).val; rw [a31]; omega

/-- An index of the output array is in point `t`'s block iff each coordinate is in the block's range on its axis. -/
theorem mem_block0 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v28).slice (win0_5.rect t)).set ↔ _
  rw [View.set_slice_whole, Rect.mem_set_unit]
  exact Iff.rfl

/-- Every index of the output array is in some point's block: row `r` is in the block of point `r / 2000`, and a block
    spans all 128 columns. -/
theorem row_covered0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  have ht : (i 0).val / 2000 < cfg0.N := by rw [hN]; omega
  refine ⟨⟨(i 0).val / 2000, ht⟩, flush0_5 _, ?_⟩
  obtain ⟨-, -, -, -, -, -, -, -, -, -, a50, a51⟩ := block_indices0 ⟨(i 0).val / 2000, ht⟩
  rw [mem_block0]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [a50]; show (i 0).val / 2000 * 2000 ≤ (i 0).val ∧ (i 0).val < (i 0).val / 2000 * 2000 + 2000; omega
  | ⟨1, _⟩ =>
    show win0_5.index ⟨(i 0).val / 2000, ht⟩ (1 : Fin 2) * 128 ≤ (i 1).val ∧ (i 1).val < win0_5.index ⟨(i 0).val / 2000, ht⟩ (1 : Fin 2) * 128 + 128
    rw [a51]; omega

/-- The first region leaves in its output array the layer, in the kernel's arrangement, of the arrays it finds: every
    point writes its block of that one function, and the blocks cover the array. -/
theorem region0_value (c : Dev nD) :
    (dat0 (F := Ideal) V c).arrAt 5 cfg0.N
      = Cert.Sage.kLayer true (V c main_v24) (V c main_arg0) (V c main_v25) (V c main_v26) (V c main_v27) :=
  (dat0 (F := Ideal) V c).arrAt_eq_of_cover 5
    (Cert.Sage.kLayer true (V c main_v24) (V c main_arg0) (V c main_v25) (V c main_v26) (V c main_v27))
    (fun t _ => written_block0 V c t) row_covered0

end Cert.KernelIdeal.RegionValue

end
-- ==== Proof.Region1.lean ====
/-
  What the second of the kernel's three regions leaves in its output array.

  The region visits 50 grid points. At point `t` it holds rows `2000·t … 2000·t + 1999` of the scaled aggregation `A`
  and of the node features `h` (two blocks of 2000 rows by 128 columns), and the whole of the two weight matrices
  `wl`, `wr` (128 by 128) and of the bias row `b` (1 by 128). For a row `p` of the block and a column `j` it forms

      (Σ_k A(2000·t + p, k) · wl(k, j)  +  Σ_k h(2000·t + p, k) · wr(k, j))  +  b(0, j),

  takes the maximum with zero,

  and writes the 2000 by 128 result to rows `2000·t … 2000·t + 1999` of the output. At the ideal values the change
  of float format before each product is the identity, and a product into a zero accumulator is the plain sum over
  `k`. Row `r` of the output is written by point `r / 2000` and by no other, and the 50 blocks fill the 100000 rows,
  so the output array ends as the layer in the kernel's arrangement (`Cert.Sage.kLayer true`) of the five arrays
  the region finds.
-/
import proofs.«127042_j63058709840617_1_alg».proof.Proof.Gen.KernelIdeal.Frame
import proofs.«127042_j63058709840617_1_alg».proof.Proof.Spec
import proofs.«127042_j63058709840617_1_alg».proof.Proof.LibMatmul
import Idealize.ShloMosaic.Lib.Pipeline.Value
import Idealize.ShloMosaic.Lib.ValueIdx
import Idealize.ShloMosaic.Lib.ValueLayout

open scoped BigOperators

noncomputable section

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

/-! ## The arithmetic of one block, at a row and a column -/

/-- The contraction of the body's two products is the plain one: axis 1 of a 2000 by 128 block against axis 0 of a
    128 by 128 matrix, no batch axis. -/
theorem contraction_plain1 : dot_S2000x128_S128x128_S2000x128_1_0_0_1_n_n = DotDims.plain 2000 128 128 := rfl

/-- Entry `(p, j)` of what the body computes from its five blocks: the two products added, then the bias row, then the
    maximum with zero. -/
theorem payload1_apply (x0 x1 : Vec Ideal S2000x128 .f32) (x2 x4 : Vec Ideal S128x128 .f32) (x3 : Vec Ideal S1x128 .f32)
    (p : Fin 2000) (j : Fin 128) :
    k1_pay1 (F := Ideal) x0 x1 x2 x4 x3 (ix2 p j)
      = Cert.Sage.post true ((∑ k : Fin 128, x0 (ix2 p k) * x2 (ix2 k j) + ∑ k : Fin 128, x1 (ix2 p k) * x4 (ix2 k j))
          + x3 (ix2 (0 : Fin 1) j)) := by
  unfold k1_pay1
  simp only [shapeCast_self]
  rw [contraction_plain1]
  unfold Cert.Sage.post
  rw [if_pos rfl]
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) ?_ ?_
    · exact Cert.MatOps.matmul_plain_zero_apply none _ _ p j
    · exact Cert.MatOps.matmul_plain_zero_apply none _ _ p j
  · exact broadcastTo_1b_ab_apply x3 _ p j

/-- The same entry, once it is known where the blocks sit in their arrays: at block index `y` and array index `i` in
    the same column, when row `y 0` of the two row blocks is row `i 0` of `A` and of `h`, and the weight and bias blocks
    are the whole arrays, the body's entry is the layer's entry `i`. -/
theorem payload1_block (x0 x1 : Vec Ideal S2000x128 .f32) (x2 x4 : Vec Ideal S128x128 .f32) (x3 : Vec Ideal S1x128 .f32)
    (A h : FVec Ideal Cert.Sage.SND .f32) (wl wr : FVec Ideal Cert.Sage.SDD .f32) (b2 : FVec Ideal Cert.Sage.S1D .f32)
    (y : S2000x128.Idx) (i : Cert.Sage.SND.Idx)
    (hj : (i 1).val = (y 1).val)
    (h0 : ∀ k : Fin 128, x0 (ix2 (y 0) k) = A (ix2 (i 0) k))
    (h1 : ∀ k : Fin 128, x1 (ix2 (y 0) k) = h (ix2 (i 0) k))
    (h2 : x2 = wl) (h4 : x4 = wr) (h3 : x3 = b2) :
    k1_pay1 (F := Ideal) x0 x1 x2 x4 x3 y = Cert.Sage.kLayer true A h wl wr b2 i := by
  have ey : y = ix2 (y 0) (y 1) := eq_ix2 y
  have e1 : i 1 = y 1 := Fin.ext hj
  subst h2 h4 h3
  show _ = Cert.Sage.kAt true A h x2 x4 x3 (i 0) (i 1)
  rw [e1]
  unfold Cert.Sage.kAt
  simp only [← h0, ← h1]
  rw [← payload1_apply x0 x1 x2 x4 x3 (y 0) (y 1)]
  exact congrArg _ ey

/-! ## From the blocks to the array -/

variable (V : (c : Dev nD) → (b : Ref sig .tc) → Buf (Elt Ideal) ((c : Thread nD τ).loc b))

/-- The body reads and writes its blocks whole: every access starts at offset zero on both axes. -/
theorem offsets_zero1 : (![0, 0] : Fin 2 → Nat) = fun _ => 0 := funext fun a => by fin_cases a <;> rfl

/-- The block each window holds at grid point `t`: the two row-block inputs and the output are at block row `t`, column
    block 0; the weight matrices and the bias row are at block `(0, 0)`, the whole array. Decided over the 50 points. -/
theorem block_indices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the layer of the arrays the region finds. An entry of a block sits in its
    array at (block index × block size + position inside the block) on each axis; the inputs' row blocks are at the
    output's block row, so row `p` of each is the array's row `2000·t + p`, and the three whole-array blocks are their
    arrays. -/
theorem written_block1 (c : Dev nD) (t : Fin cfg1.N) :
    (dat1 (F := Ideal) V c).flushed 5 t = ((cfg1.win 5).blk t).view.read (Elt Ideal)
      (Cert.Sage.kLayer true (V c main_v41) (V c main_v28) (V c main_v42) (V c main_v43) (V c main_v44)) := by
  show (cfg1.win 5).cut (grid1.coords t) ((dat1 V c).after 5 t) = _
  rw [after1_5]
  unfold out1_5
  rw [View.canon_unit_zero offsets_zero1]
  simp only [View.ld_unit_zero (S := S2000x128) offsets_zero1, View.ld_unit_zero (S := S128x128) offsets_zero1,
    View.ld_unit_zero (S := S1x128) offsets_zero1]
  obtain ⟨a00, a01, a10, a11, a20, a21, a30, a31, a40, a41, a50, a51⟩ := block_indices1 t
  funext y
  refine payload1_block (iblk1 V c 0 t) (iblk1 V c 1 t) (iblk1 V c 2 t) (iblk1 V c 4 t) (iblk1 V c 3 t)
    (V c main_v41) (V c main_v28) (V c main_v42) (V c main_v43) (V c main_v44) y (((cfg1.win 5).blk t).view.emb y)
    ?_ ?_ ?_ ?_ ?_ ?_
  · show win1_5.index t (1 : Fin 2) * 128 + 1 * (y 1).val = (y 1).val
    rw [a51]; omega
  · intro k
    show V c main_v41 (((cfg1.win 0).blk t).view.emb (ix2 (y 0) k)) = V c main_v41 (ix2 (((cfg1.win 5).blk t).view.emb y 0) k)
    refine congrArg _ (funext fun a => Fin.ext ?_)
    match a with
    | ⟨0, _⟩ => show win1_0.index t (0 : Fin 2) * 2000 + 1 * (y 0).val = win1_5.index t (0 : Fin 2) * 2000 + 1 * (y 0).val; rw [a00, a50]
    | ⟨1, _⟩ => show win1_0.index t (1 : Fin 2) * 128 + 1 * k.val = k.val; rw [a01]; omega
  · intro k
    show V c main_v28 (((cfg1.win 1).blk t).view.emb (ix2 (y 0) k)) = V c main_v28 (ix2 (((cfg1.win 5).blk t).view.emb y 0) k)
    refine congrArg _ (funext fun a => Fin.ext ?_)
    match a with
    | ⟨0, _⟩ => show win1_1.index t (0 : Fin 2) * 2000 + 1 * (y 0).val = win1_5.index t (0 : Fin 2) * 2000 + 1 * (y 0).val; rw [a10, a50]
    | ⟨1, _⟩ => show win1_1.index t (1 : Fin 2) * 128 + 1 * k.val = k.val; rw [a11]; omega
  · funext x
    show V c main_v42 (((cfg1.win 2).blk t).view.emb x) = V c main_v42 x
    refine congrArg _ (funext fun a => Fin.ext ?_)
    match a with
    | ⟨0, _⟩ => show win1_2.index t (0 : Fin 2) * 128 + 1 * (x 0).val = (x 0).val; rw [a20]; omega
    | ⟨1, _⟩ => show win1_2.index t (1 : Fin 2) * 128 + 1 * (x 1).val = (x 1).val; rw [a21]; omega
  · funext x
    show V c main_v43 (((cfg1.win 4).blk t).view.emb x) = V c main_v43 x
    refine congrArg _ (funext fun a => Fin.ext ?_)
    match a with
    | ⟨0, _⟩ => show win1_4.index t (0 : Fin 2) * 128 + 1 * (x 0).val = (x 0).val; rw [a40]; omega
    | ⟨1, _⟩ => show win1_4.index t (1 : Fin 2) * 128 + 1 * (x 1).val = (x 1).val; rw [a41]; omega
  · funext x
    show V c main_v44 (((cfg1.win 3).blk t).view.emb x) = V c main_v44 x
    refine congrArg _ (funext fun a => Fin.ext ?_)
    match a with
    | ⟨0, _⟩ => show win1_3.index t (0 : Fin 2) * 1 + 1 * (x 0).val = (x 0).val; rw [a30]; omega
    | ⟨1, _⟩ => show win1_3.index t (1 : Fin 2) * 128 + 1 * (x 1).val = (x 1).val; rw [a31]; omega

/-- An index of the output array is in point `t`'s block iff each coordinate is in the block's range on its axis. -/
theorem mem_block1 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v45).slice (win1_5.rect t)).set ↔ _
  rw [View.set_slice_whole, Rect.mem_set_unit]
  exact Iff.rfl

/-- Every index of the output array is in some point's block: row `r` is in the block of point `r / 2000`, and a block
    spans all 128 columns. -/
theorem row_covered1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  have ht : (i 0).val / 2000 < cfg1.N := by rw [hN]; omega
  refine ⟨⟨(i 0).val / 2000, ht⟩, flush1_5 _, ?_⟩
  obtain ⟨-, -, -, -, -, -, -, -, -, -, a50, a51⟩ := block_indices1 ⟨(i 0).val / 2000, ht⟩
  rw [mem_block1]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [a50]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val ∧ (i 1).val < win1_5.index ⟨(i 0).val / 2000, ht⟩ (1 : Fin 2) * 128 + 128
    rw [a51]; omega

/-- The second region leaves in its output array the layer, in the kernel's arrangement, of the arrays it finds: every
    point writes its block of that one function, and the blocks cover the array. -/
theorem region1_value (c : Dev nD) :
    (dat1 (F := Ideal) V c).arrAt 5 cfg1.N
      = Cert.Sage.kLayer true (V c main_v41) (V c main_v28) (V c main_v42) (V c main_v43) (V c main_v44) :=
  (dat1 (F := Ideal) V c).arrAt_eq_of_cover 5
    (Cert.Sage.kLayer true (V c main_v41) (V c main_v28) (V c main_v42) (V c main_v43) (V c main_v44))
    (fun t _ => written_block1 V c t) row_covered1

end Cert.KernelIdeal.RegionValue

end
-- ==== Proof.Region2.lean ====
/-
  What the third of the kernel's three regions leaves in its output array.

  The region visits 50 grid points. At point `t` it holds rows `2000·t … 2000·t + 1999` of the scaled aggregation `A`
  and of the node features `h` (two blocks of 2000 rows by 128 columns), and the whole of the two weight matrices
  `wl`, `wr` (128 by 128) and of the bias row `b` (1 by 128). For a row `p` of the block and a column `j` it forms

      (Σ_k A(2000·t + p, k) · wl(k, j)  +  Σ_k h(2000·t + p, k) · wr(k, j))  +  b(0, j),

  and writes the 2000 by 128 result to rows `2000·t … 2000·t + 1999` of the output. At the ideal values the change
  of float format before each product is the identity, and a product into a zero accumulator is the plain sum over
  `k`. Row `r` of the output is written by point `r / 2000` and by no other, and the 50 blocks fill the 100000 rows,
  so the output array ends as the layer in the kernel's arrangement (`Cert.Sage.kLayer false`) of the five arrays
  the region finds.
-/
import proofs.«127042_j63058709840617_1_alg».proof.Proof.Gen.KernelIdeal.Frame
import proofs.«127042_j63058709840617_1_alg».proof.Proof.Spec
import proofs.«127042_j63058709840617_1_alg».proof.Proof.LibMatmul
import Idealize.ShloMosaic.Lib.Pipeline.Value
import Idealize.ShloMosaic.Lib.ValueIdx
import Idealize.ShloMosaic.Lib.ValueLayout

open scoped BigOperators

noncomputable section

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

/-! ## The arithmetic of one block, at a row and a column -/

/-- The contraction of the body's two products is the plain one: axis 1 of a 2000 by 128 block against axis 0 of a
    128 by 128 matrix, no batch axis. -/
theorem contraction_plain2 : dot_S2000x128_S128x128_S2000x128_1_0_0_1_n_n = DotDims.plain 2000 128 128 := rfl

/-- Entry `(p, j)` of what the body computes from its five blocks: the two products added, then the bias row. -/
theorem payload2_apply (x0 x1 : Vec Ideal S2000x128 .f32) (x2 x4 : Vec Ideal S128x128 .f32) (x3 : Vec Ideal S1x128 .f32)
    (p : Fin 2000) (j : Fin 128) :
    k2_pay1 (F := Ideal) x0 x1 x2 x4 x3 (ix2 p j)
      = Cert.Sage.post false ((∑ k : Fin 128, x0 (ix2 p k) * x2 (ix2 k j) + ∑ k : Fin 128, x1 (ix2 p k) * x4 (ix2 k j))
          + x3 (ix2 (0 : Fin 1) j)) := by
  unfold k2_pay1
  simp only [shapeCast_self]
  rw [contraction_plain2]
  unfold Cert.Sage.post
  rw [if_neg Bool.false_ne_true]
  refine (addf_apply _ _ _).trans ?_
  refine congrArg₂ (· + ·) ?_ ?_
  · refine (addf_apply _ _ _).trans ?_
    refine congrArg₂ (· + ·) ?_ ?_
    · exact Cert.MatOps.matmul_plain_zero_apply none _ _ p j
    · exact Cert.MatOps.matmul_plain_zero_apply none _ _ p j
  · exact broadcastTo_1b_ab_apply x3 _ p j

/-- The same entry, once it is known where the blocks sit in their arrays: at block index `y` and array index `i` in
    the same column, when row `y 0` of the two row blocks is row `i 0` of `A` and of `h`, and the weight and bias blocks
    are the whole arrays, the body's entry is the layer's entry `i`. -/
theorem payload2_block (x0 x1 : Vec Ideal S2000x128 .f32) (x2 x4 : Vec Ideal S128x128 .f32) (x3 : Vec Ideal S1x128 .f32)
    (A h : FVec Ideal Cert.Sage.SND .f32) (wl wr : FVec Ideal Cert.Sage.SDD .f32) (b2 : FVec Ideal Cert.Sage.S1D .f32)
    (y : S2000x128.Idx) (i : Cert.Sage.SND.Idx)
    (hj : (i 1).val = (y 1).val)
    (h0 : ∀ k : Fin 128, x0 (ix2 (y 0) k) = A (ix2 (i 0) k))
    (h1 : ∀ k : Fin 128, x1 (ix2 (y 0) k) = h (ix2 (i 0) k))
    (h2 : x2 = wl) (h4 : x4 = wr) (h3 : x3 = b2) :
    k2_pay1 (F := Ideal) x0 x1 x2 x4 x3 y = Cert.Sage.kLayer false A h wl wr b2 i := by
  have ey : y = ix2 (y 0) (y 1) := eq_ix2 y
  have e1 : i 1 = y 1 := Fin.ext hj
  subst h2 h4 h3
  show _ = Cert.Sage.kAt false A h x2 x4 x3 (i 0) (i 1)
  rw [e1]
  unfold Cert.Sage.kAt
  simp only [← h0, ← h1]
  rw [← payload2_apply x0 x1 x2 x4 x3 (y 0) (y 1)]
  exact congrArg _ ey

/-! ## From the blocks to the array -/

variable (V : (c : Dev nD) → (b : Ref sig .tc) → Buf (Elt Ideal) ((c : Thread nD τ).loc b))

/-- The body reads and writes its blocks whole: every access starts at offset zero on both axes. -/
theorem offsets_zero2 : (![0, 0] : Fin 2 → Nat) = fun _ => 0 := funext fun a => by fin_cases a <;> rfl

/-- The block each window holds at grid point `t`: the two row-block inputs and the output are at block row `t`, column
    block 0; the weight matrices and the bias row are at block `(0, 0)`, the whole array. Decided over the 50 points. -/
theorem block_indices2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the layer of the arrays the region finds. An entry of a block sits in its
    array at (block index × block size + position inside the block) on each axis; the inputs' row blocks are at the
    output's block row, so row `p` of each is the array's row `2000·t + p`, and the three whole-array blocks are their
    arrays. -/
theorem written_block2 (c : Dev nD) (t : Fin cfg2.N) :
    (dat2 (F := Ideal) V c).flushed 5 t = ((cfg2.win 5).blk t).view.read (Elt Ideal)
      (Cert.Sage.kLayer false (V c main_v58) (V c main_v45) (V c main_v59) (V c main_v60) (V c main_v61)) := by
  show (cfg2.win 5).cut (grid2.coords t) ((dat2 V c).after 5 t) = _
  rw [after2_5]
  unfold out2_5
  rw [View.canon_unit_zero offsets_zero2]
  simp only [View.ld_unit_zero (S := S2000x128) offsets_zero2, View.ld_unit_zero (S := S128x128) offsets_zero2,
    View.ld_unit_zero (S := S1x128) offsets_zero2]
  obtain ⟨a00, a01, a10, a11, a20, a21, a30, a31, a40, a41, a50, a51⟩ := block_indices2 t
  funext y
  refine payload2_block (iblk2 V c 0 t) (iblk2 V c 1 t) (iblk2 V c 2 t) (iblk2 V c 4 t) (iblk2 V c 3 t)
    (V c main_v58) (V c main_v45) (V c main_v59) (V c main_v60) (V c main_v61) y (((cfg2.win 5).blk t).view.emb y)
    ?_ ?_ ?_ ?_ ?_ ?_
  · show win2_5.index t (1 : Fin 2) * 128 + 1 * (y 1).val = (y 1).val
    rw [a51]; omega
  · intro k
    show V c main_v58 (((cfg2.win 0).blk t).view.emb (ix2 (y 0) k)) = V c main_v58 (ix2 (((cfg2.win 5).blk t).view.emb y 0) k)
    refine congrArg _ (funext fun a => Fin.ext ?_)
    match a with
    | ⟨0, _⟩ => show win2_0.index t (0 : Fin 2) * 2000 + 1 * (y 0).val = win2_5.index t (0 : Fin 2) * 2000 + 1 * (y 0).val; rw [a00, a50]
    | ⟨1, _⟩ => show win2_0.index t (1 : Fin 2) * 128 + 1 * k.val = k.val; rw [a01]; omega
  · intro k
    show V c main_v45 (((cfg2.win 1).blk t).view.emb (ix2 (y 0) k)) = V c main_v45 (ix2 (((cfg2.win 5).blk t).view.emb y 0) k)
    refine congrArg _ (funext fun a => Fin.ext ?_)
    match a with
    | ⟨0, _⟩ => show win2_1.index t (0 : Fin 2) * 2000 + 1 * (y 0).val = win2_5.index t (0 : Fin 2) * 2000 + 1 * (y 0).val; rw [a10, a50]
    | ⟨1, _⟩ => show win2_1.index t (1 : Fin 2) * 128 + 1 * k.val = k.val; rw [a11]; omega
  · funext x
    show V c main_v59 (((cfg2.win 2).blk t).view.emb x) = V c main_v59 x
    refine congrArg _ (funext fun a => Fin.ext ?_)
    match a with
    | ⟨0, _⟩ => show win2_2.index t (0 : Fin 2) * 128 + 1 * (x 0).val = (x 0).val; rw [a20]; omega
    | ⟨1, _⟩ => show win2_2.index t (1 : Fin 2) * 128 + 1 * (x 1).val = (x 1).val; rw [a21]; omega
  · funext x
    show V c main_v60 (((cfg2.win 4).blk t).view.emb x) = V c main_v60 x
    refine congrArg _ (funext fun a => Fin.ext ?_)
    match a with
    | ⟨0, _⟩ => show win2_4.index t (0 : Fin 2) * 128 + 1 * (x 0).val = (x 0).val; rw [a40]; omega
    | ⟨1, _⟩ => show win2_4.index t (1 : Fin 2) * 128 + 1 * (x 1).val = (x 1).val; rw [a41]; omega
  · funext x
    show V c main_v61 (((cfg2.win 3).blk t).view.emb x) = V c main_v61 x
    refine congrArg _ (funext fun a => Fin.ext ?_)
    match a with
    | ⟨0, _⟩ => show win2_3.index t (0 : Fin 2) * 1 + 1 * (x 0).val = (x 0).val; rw [a30]; omega
    | ⟨1, _⟩ => show win2_3.index t (1 : Fin 2) * 128 + 1 * (x 1).val = (x 1).val; rw [a31]; omega

/-- An index of the output array is in point `t`'s block iff each coordinate is in the block's range on its axis. -/
theorem mem_block2 (t : Fin cfg2.N) (i : S100000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v62).slice (win2_5.rect t)).set ↔ _
  rw [View.set_slice_whole, Rect.mem_set_unit]
  exact Iff.rfl

/-- Every index of the output array is in some point's block: row `r` is in the block of point `r / 2000`, and a block
    spans all 128 columns. -/
theorem row_covered2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 50 := N_2
  have ht : (i 0).val / 2000 < cfg2.N := by rw [hN]; omega
  refine ⟨⟨(i 0).val / 2000, ht⟩, flush2_5 _, ?_⟩
  obtain ⟨-, -, -, -, -, -, -, -, -, -, a50, a51⟩ := block_indices2 ⟨(i 0).val / 2000, ht⟩
  rw [mem_block2]
  intro a
  match a with
  | ⟨0, _⟩ =>
    show win2_5.index ⟨(i 0).val / 2000, ht⟩ (0 : Fin 2) * 2000 ≤ (i 0).val ∧ (i 0).val < win2_5.index ⟨(i 0).val / 2000, ht⟩ (0 : Fin 2) * 2000 + 2000
    rw [a50]; show (i 0).val / 2000 * 2000 ≤ (i 0).val ∧ (i 0).val < (i 0).val / 2000 * 2000 + 2000; omega
  | ⟨1, _⟩ =>
    show win2_5.index ⟨(i 0).val / 2000, ht⟩ (1 : Fin 2) * 128 ≤ (i 1).val ∧ (i 1).val < win2_5.index ⟨(i 0).val / 2000, ht⟩ (1 : Fin 2) * 128 + 128
    rw [a51]; omega

/-- The third region leaves in its output array the layer, in the kernel's arrangement, of the arrays it finds: every
    point writes its block of that one function, and the blocks cover the array. -/
theorem region2_value (c : Dev nD) :
    (dat2 (F := Ideal) V c).arrAt 5 cfg2.N
      = Cert.Sage.kLayer false (V c main_v58) (V c main_v45) (V c main_v59) (V c main_v60) (V c main_v61) :=
  (dat2 (F := Ideal) V c).arrAt_eq_of_cover 5
    (Cert.Sage.kLayer false (V c main_v58) (V c main_v45) (V c main_v59) (V c main_v60) (V c main_v61))
    (fun t _ => written_block2 V c t) row_covered2

end Cert.KernelIdeal.RegionValue

end
-- ==== Proof.HostChain.lean ====
/-
  What the host operations between the regions leave in the arrays each region is entered with.

  The program is three layers. Before each region the host computes, from the node features the layer is fed and
  the edge table, the aggregation (gather the source rows, scatter-add them at the destinations) scaled by the
  reciprocal of the raised in-degree, transposes the layer's two weight matrices and lays its bias as a one-row
  array. The two rows of the edge table and the reciprocal count are computed once, before the first region, and only
  read afterwards: no later operation and no region writes them, so every later stretch finds them as the first
  stretch left them. Likewise an argument array is written by nobody, and a region's output array is not written by
  the stretch that follows it.

  Each statement below says that one entry array is the specification's term of the argument arrays (and, for the
  second and third layer, of the previous region's output array, left as it is). Nothing is evaluated: both sides are
  the same composition of the same operations, and the proofs only bring the two spellings together.
-/
import proofs.«127042_j63058709840617_1_alg».proof.Proof.Gen.KernelIdeal.Frame
import proofs.«127042_j63058709840617_1_alg».proof.Proof.Spec

noncomputable section

namespace Cert.KernelIdeal.Chain

open Cert.KernelIdeal Cert.KernelIdeal.Gen Idealize.ShloMosaic Idealize.ShloMosaic.TcCoe Idealize.SL.Sem

/-- The gather of rows and the two scatter-additions the host applies, by the names the specification takes them. -/
abbrev g := Cert.KernelIdeal.gather_S100000x128_S640000x1_S640000x128_1_0_n_n_0_1_1128
abbrev sc := Cert.KernelIdeal.scatter_S100000x128_S640000x1_S640000x128_1_0_0_1
abbrev sc1 := Cert.KernelIdeal.scatter_S100000_S640000x1_S640000_n_0_0_1

variable (m : (ℓ : Loc nD τ sig) → Buf (Elt Ideal) ℓ) (ρ : Dev nD → PrngReg)

/-- A buffer that no operation of a stretch writes holds after the stretch what it held before: the buffer differs
    from every operation's result buffer, one comparison of references per operation. -/
macro "unwritten_by " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, Finset.mem_singleton]
      repeat' apply And.intro
      all_goals exact StableHlo.devRef_ne_of_ne (by decide))))

/-! ## The argument arrays: written by nobody, so at every boundary as launched -/

theorem W1_arg0 (c : Dev nD) : W1 (F := Ideal) m ρ c (Proc.devRef .tc main_arg0) = (m ((c : Thread nD τ).loc main_arg0)) :=
  calc W1 (F := Ideal) m ρ c (Proc.devRef .tc main_arg0)
    _ = W0 m ρ c (Proc.devRef .tc main_arg0) := by unwritten_by hostOps0
    _ = (m ((c : Thread nD τ).loc main_arg0)) := rfl

theorem W2_arg5 (c : Dev nD) : W2 (F := Ideal) m ρ c (Proc.devRef .tc main_arg5) = (m ((c : Thread nD τ).loc main_arg5)) :=
  calc W2 (F := Ideal) m ρ c (Proc.devRef .tc main_arg5)
    _ = W1 m ρ c (Proc.devRef .tc main_arg5) := W2_of_ne m ρ c main_arg5 (by decide)
    _ = W0 m ρ c (Proc.devRef .tc main_arg5) := by unwritten_by hostOps0
    _ = (m ((c : Thread nD τ).loc main_arg5)) := rfl

theorem W2_arg6 (c : Dev nD) : W2 (F := Ideal) m ρ c (Proc.devRef .tc main_arg6) = (m ((c : Thread nD τ).loc main_arg6)) :=
  calc W2 (F := Ideal) m ρ c (Proc.devRef .tc main_arg6)
    _ = W1 m ρ c (Proc.devRef .tc main_arg6) := W2_of_ne m ρ c main_arg6 (by decide)
    _ = W0 m ρ c (Proc.devRef .tc main_arg6) := by unwritten_by hostOps0
    _ = (m ((c : Thread nD τ).loc main_arg6)) := rfl

theorem W2_arg7 (c : Dev nD) : W2 (F := Ideal) m ρ c (Proc.devRef .tc main_arg7) = (m ((c : Thread nD τ).loc main_arg7)) :=
  calc W2 (F := Ideal) m ρ c (Proc.devRef .tc main_arg7)
    _ = W1 m ρ c (Proc.devRef .tc main_arg7) := W2_of_ne m ρ c main_arg7 (by decide)
    _ = W0 m ρ c (Proc.devRef .tc main_arg7) := by unwritten_by hostOps0
    _ = (m ((c : Thread nD τ).loc main_arg7)) := rfl

theorem W2_arg8 (c : Dev nD) : W2 (F := Ideal) m ρ c (Proc.devRef .tc main_arg8) = (m ((c : Thread nD τ).loc main_arg8)) :=
  calc W2 (F := Ideal) m ρ c (Proc.devRef .tc main_arg8)
    _ = W1 m ρ c (Proc.devRef .tc main_arg8) := W2_of_ne m ρ c main_arg8 (by decide)
    _ = W0 m ρ c (Proc.devRef .tc main_arg8) := by unwritten_by hostOps0
    _ = (m ((c : Thread nD τ).loc main_arg8)) := rfl

theorem W2_arg9 (c : Dev nD) : W2 (F := Ideal) m ρ c (Proc.devRef .tc main_arg9) = (m ((c : Thread nD τ).loc main_arg9)) :=
  calc W2 (F := Ideal) m ρ c (Proc.devRef .tc main_arg9)
    _ = W1 m ρ c (Proc.devRef .tc main_arg9) := W2_of_ne m ρ c main_arg9 (by decide)
    _ = W0 m ρ c (Proc.devRef .tc main_arg9) := by unwritten_by hostOps0
    _ = (m ((c : Thread nD τ).loc main_arg9)) := rfl

theorem W2_arg10 (c : Dev nD) : W2 (F := Ideal) m ρ c (Proc.devRef .tc main_arg10) = (m ((c : Thread nD τ).loc main_arg10)) :=
  calc W2 (F := Ideal) m ρ c (Proc.devRef .tc main_arg10)
    _ = W1 m ρ c (Proc.devRef .tc main_arg10) := W2_of_ne m ρ c main_arg10 (by decide)
    _ = W0 m ρ c (Proc.devRef .tc main_arg10) := by unwritten_by hostOps0
    _ = (m ((c : Thread nD τ).loc main_arg10)) := rfl

theorem W4_arg8 (c : Dev nD) : W4 (F := Ideal) m ρ c (Proc.devRef .tc main_arg8) = (m ((c : Thread nD τ).loc main_arg8)) :=
  calc W4 (F := Ideal) m ρ c (Proc.devRef .tc main_arg8)
    _ = W3 m ρ c (Proc.devRef .tc main_arg8) := W4_of_ne m ρ c main_arg8 (by decide)
    _ = W2 m ρ c (Proc.devRef .tc main_arg8) := by unwritten_by hostOps1
    _ = (m ((c : Thread nD τ).loc main_arg8)) := W2_arg8 m ρ c

theorem W4_arg9 (c : Dev nD) : W4 (F := Ideal) m ρ c (Proc.devRef .tc main_arg9) = (m ((c : Thread nD τ).loc main_arg9)) :=
  calc W4 (F := Ideal) m ρ c (Proc.devRef .tc main_arg9)
    _ = W3 m ρ c (Proc.devRef .tc main_arg9) := W4_of_ne m ρ c main_arg9 (by decide)
    _ = W2 m ρ c (Proc.devRef .tc main_arg9) := by unwritten_by hostOps1
    _ = (m ((c : Thread nD τ).loc main_arg9)) := W2_arg9 m ρ c

theorem W4_arg10 (c : Dev nD) : W4 (F := Ideal) m ρ c (Proc.devRef .tc main_arg10) = (m ((c : Thread nD τ).loc main_arg10)) :=
  calc W4 (F := Ideal) m ρ c (Proc.devRef .tc main_arg10)
    _ = W3 m ρ c (Proc.devRef .tc main_arg10) := W4_of_ne m ρ c main_arg10 (by decide)
    _ = W2 m ρ c (Proc.devRef .tc main_arg10) := by unwritten_by hostOps1
    _ = (m ((c : Thread nD τ).loc main_arg10)) := W2_arg10 m ρ c

/-! ## The two rows of the edge table and the reciprocal count: computed before the first region, read by every stretch -/

theorem W1_v1 (c : Dev nD) :
    W1 (F := Ideal) m ρ c (Proc.devRef .tc main_v1) = Cert.Sage.edgeRow 0 (m ((c : Thread nD τ).loc main_arg1)) (by decide) := by
  show StableHlo.after hostOps0 (W0 m ρ c) (Proc.devRef .tc main_v1) = _
  after_results_simp
  rfl

theorem W1_v3 (c : Dev nD) :
    W1 (F := Ideal) m ρ c (Proc.devRef .tc main_v3) = Cert.Sage.edgeRow 1 (m ((c : Thread nD τ).loc main_arg1)) (by decide) := by
  show StableHlo.after hostOps0 (W0 m ρ c) (Proc.devRef .tc main_v3) = _
  after_results_simp
  rfl

theorem W1_v11 (c : Dev nD) :
    W1 (F := Ideal) m ρ c (Proc.devRef .tc main_v11) = Cert.Sage.invCnt (Cert.Sage.cnt sc1 (m ((c : Thread nD τ).loc main_arg1))) := by
  show StableHlo.after hostOps0 (W0 m ρ c) (Proc.devRef .tc main_v11) = _
  after_results_simp
  rfl

theorem W2_v1 (c : Dev nD) : W2 (F := Ideal) m ρ c (Proc.devRef .tc main_v1) = Cert.Sage.edgeRow 0 (m ((c : Thread nD τ).loc main_arg1)) (by decide) :=
  (W2_of_ne m ρ c main_v1 (by decide)).trans (W1_v1 m ρ c)

theorem W4_v1 (c : Dev nD) : W4 (F := Ideal) m ρ c (Proc.devRef .tc main_v1) = Cert.Sage.edgeRow 0 (m ((c : Thread nD τ).loc main_arg1)) (by decide) :=
  calc W4 (F := Ideal) m ρ c (Proc.devRef .tc main_v1)
    _ = W3 m ρ c (Proc.devRef .tc main_v1) := W4_of_ne m ρ c main_v1 (by decide)
    _ = W2 m ρ c (Proc.devRef .tc main_v1) := by unwritten_by hostOps1
    _ = Cert.Sage.edgeRow 0 (m ((c : Thread nD τ).loc main_arg1)) (by decide) := W2_v1 m ρ c

theorem W2_v3 (c : Dev nD) : W2 (F := Ideal) m ρ c (Proc.devRef .tc main_v3) = Cert.Sage.edgeRow 1 (m ((c : Thread nD τ).loc main_arg1)) (by decide) :=
  (W2_of_ne m ρ c main_v3 (by decide)).trans (W1_v3 m ρ c)

theorem W4_v3 (c : Dev nD) : W4 (F := Ideal) m ρ c (Proc.devRef .tc main_v3) = Cert.Sage.edgeRow 1 (m ((c : Thread nD τ).loc main_arg1)) (by decide) :=
  calc W4 (F := Ideal) m ρ c (Proc.devRef .tc main_v3)
    _ = W3 m ρ c (Proc.devRef .tc main_v3) := W4_of_ne m ρ c main_v3 (by decide)
    _ = W2 m ρ c (Proc.devRef .tc main_v3) := by unwritten_by hostOps1
    _ = Cert.Sage.edgeRow 1 (m ((c : Thread nD τ).loc main_arg1)) (by decide) := W2_v3 m ρ c

theorem W2_v11 (c : Dev nD) : W2 (F := Ideal) m ρ c (Proc.devRef .tc main_v11) = Cert.Sage.invCnt (Cert.Sage.cnt sc1 (m ((c : Thread nD τ).loc main_arg1))) :=
  (W2_of_ne m ρ c main_v11 (by decide)).trans (W1_v11 m ρ c)

theorem W4_v11 (c : Dev nD) : W4 (F := Ideal) m ρ c (Proc.devRef .tc main_v11) = Cert.Sage.invCnt (Cert.Sage.cnt sc1 (m ((c : Thread nD τ).loc main_arg1))) :=
  calc W4 (F := Ideal) m ρ c (Proc.devRef .tc main_v11)
    _ = W3 m ρ c (Proc.devRef .tc main_v11) := W4_of_ne m ρ c main_v11 (by decide)
    _ = W2 m ρ c (Proc.devRef .tc main_v11) := by unwritten_by hostOps1
    _ = Cert.Sage.invCnt (Cert.Sage.cnt sc1 (m ((c : Thread nD τ).loc main_arg1))) := W2_v11 m ρ c

/-! ## Region 0 is entered with -/

theorem V1_v24 (c : Dev nD) :
    V1 (F := Ideal) m ρ c main_v24
      = Cert.Sage.scaled (Cert.Sage.agg g sc (m ((c : Thread nD τ).loc main_arg0)) (m ((c : Thread nD τ).loc main_arg1))) (Cert.Sage.cnt sc1 (m ((c : Thread nD τ).loc main_arg1))) := by
  show StableHlo.after hostOps0 (W0 m ρ c) (Proc.devRef .tc main_v24) = _
  after_results_simp
  rfl

theorem V1_arg0 (c : Dev nD) : V1 (F := Ideal) m ρ c main_arg0 = (m ((c : Thread nD τ).loc main_arg0)) := W1_arg0 m ρ c

theorem V1_v25 (c : Dev nD) : V1 (F := Ideal) m ρ c main_v25 = Cert.Sage.tr (m ((c : Thread nD τ).loc main_arg2)) := by
  show StableHlo.after hostOps0 (W0 m ρ c) (Proc.devRef .tc main_v25) = _
  after_results_simp
  rfl

theorem V1_v26 (c : Dev nD) : V1 (F := Ideal) m ρ c main_v26 = Cert.Sage.tr (m ((c : Thread nD τ).loc main_arg4)) := by
  show StableHlo.after hostOps0 (W0 m ρ c) (Proc.devRef .tc main_v26) = _
  after_results_simp
  rfl

theorem V1_v27 (c : Dev nD) : V1 (F := Ideal) m ρ c main_v27 = Cert.Sage.biasRow (m ((c : Thread nD τ).loc main_arg3)) := by
  show StableHlo.after hostOps0 (W0 m ρ c) (Proc.devRef .tc main_v27) = _
  after_results_simp
  rfl

/-! ## Region 1 is entered with (region 0's output array left as it is) -/

theorem V3_v41 (c : Dev nD) :
    V3 (F := Ideal) m ρ c main_v41
      = Cert.Sage.scaled (Cert.Sage.agg g sc (V2 (F := Ideal) m ρ c main_v28) (m ((c : Thread nD τ).loc main_arg1))) (Cert.Sage.cnt sc1 (m ((c : Thread nD τ).loc main_arg1))) := by
  show StableHlo.after hostOps1 (W2 m ρ c) (Proc.devRef .tc main_v41) = _
  after_results_simp
  rw [W2_v1, W2_v3, W2_v11]
  rfl

theorem V3_v28 (c : Dev nD) : V3 (F := Ideal) m ρ c main_v28 = V2 (F := Ideal) m ρ c main_v28 := by
  show StableHlo.after hostOps1 (W2 m ρ c) (Proc.devRef .tc main_v28) = W2 m ρ c (Proc.devRef .tc main_v28)
  unwritten_by hostOps1

theorem V3_v42 (c : Dev nD) : V3 (F := Ideal) m ρ c main_v42 = Cert.Sage.tr (m ((c : Thread nD τ).loc main_arg5)) := by
  show StableHlo.after hostOps1 (W2 m ρ c) (Proc.devRef .tc main_v42) = _
  after_results_simp
  rw [W2_arg5]
  rfl

theorem V3_v43 (c : Dev nD) : V3 (F := Ideal) m ρ c main_v43 = Cert.Sage.tr (m ((c : Thread nD τ).loc main_arg7)) := by
  show StableHlo.after hostOps1 (W2 m ρ c) (Proc.devRef .tc main_v43) = _
  after_results_simp
  rw [W2_arg7]
  rfl

theorem V3_v44 (c : Dev nD) : V3 (F := Ideal) m ρ c main_v44 = Cert.Sage.biasRow (m ((c : Thread nD τ).loc main_arg6)) := by
  show StableHlo.after hostOps1 (W2 m ρ c) (Proc.devRef .tc main_v44) = _
  after_results_simp
  rw [W2_arg6]
  rfl

/-! ## Region 2 is entered with (region 1's output array left as it is) -/

theorem V5_v58 (c : Dev nD) :
    V5 (F := Ideal) m ρ c main_v58
      = Cert.Sage.scaled (Cert.Sage.agg g sc (V4 (F := Ideal) m ρ c main_v45) (m ((c : Thread nD τ).loc main_arg1))) (Cert.Sage.cnt sc1 (m ((c : Thread nD τ).loc main_arg1))) := by
  show StableHlo.after hostOps2 (W4 m ρ c) (Proc.devRef .tc main_v58) = _
  after_results_simp
  rw [W4_v1, W4_v3, W4_v11]
  rfl

theorem V5_v45 (c : Dev nD) : V5 (F := Ideal) m ρ c main_v45 = V4 (F := Ideal) m ρ c main_v45 := by
  show StableHlo.after hostOps2 (W4 m ρ c) (Proc.devRef .tc main_v45) = W4 m ρ c (Proc.devRef .tc main_v45)
  unwritten_by hostOps2

theorem V5_v59 (c : Dev nD) : V5 (F := Ideal) m ρ c main_v59 = Cert.Sage.tr (m ((c : Thread nD τ).loc main_arg8)) := by
  show StableHlo.after hostOps2 (W4 m ρ c) (Proc.devRef .tc main_v59) = _
  after_results_simp
  rw [W4_arg8]
  rfl

theorem V5_v60 (c : Dev nD) : V5 (F := Ideal) m ρ c main_v60 = Cert.Sage.tr (m ((c : Thread nD τ).loc main_arg10)) := by
  show StableHlo.after hostOps2 (W4 m ρ c) (Proc.devRef .tc main_v60) = _
  after_results_simp
  rw [W4_arg10]
  rfl

theorem V5_v61 (c : Dev nD) : V5 (F := Ideal) m ρ c main_v61 = Cert.Sage.biasRow (m ((c : Thread nD τ).loc main_arg9)) := by
  show StableHlo.after hostOps2 (W4 m ρ c) (Proc.devRef .tc main_v61) = _
  after_results_simp
  rw [W4_arg9]
  rfl

end Cert.KernelIdeal.Chain

end
-- ==== Proof.KernelValue.lean ====
/-
  What the kernel program leaves in its result array: the three layers of the specification applied to the argument
  arrays.

  The program is a fold through six segments. A host stretch prepares, for the region that follows, the aggregation of
  the current node features over the edges scaled by the reciprocal count, the two weight matrices transposed and the
  bias as a row; the region's write-backs then assemble, block of 2000 rows by block, the layer in its second
  arrangement (the two products first, the bias last) of those arrays. That arrangement fed the scaled aggregation
  is the layer of the specification (`Cert.Sage.kLayer_eq_layer`). The first region reads the argument features,
  the second the first region's output, the third the second's; the last region's output is the program's result.
-/
import proofs.«127042_j63058709840617_1_alg».proof.Proof.Gen.KernelIdeal.Frame
import proofs.«127042_j63058709840617_1_alg».proof.Proof.Spec
import proofs.«127042_j63058709840617_1_alg».proof.Proof.Region0
import proofs.«127042_j63058709840617_1_alg».proof.Proof.Region1
import proofs.«127042_j63058709840617_1_alg».proof.Proof.Region2
import proofs.«127042_j63058709840617_1_alg».proof.Proof.HostChain

set_option maxRecDepth 16384

noncomputable section

open Idealize.ShloMosaic Idealize.ShloMosaic.TcCoe Idealize.SL.Sem

namespace Cert.KernelIdeal.NetValue

open Cert.KernelIdeal Cert.KernelIdeal.Gen Cert.KernelIdeal.Chain Cert.KernelIdeal.RegionValue

variable (m : (ℓ : Loc nD τ sig) → Buf (Elt Ideal) ℓ) (ρ : Dev nD → PrngReg)

/-- The first region's output array is the first layer of the argument features. -/
theorem layer1 (c : Dev nD) : V2 m ρ c main_v28 = Cert.Sage.layer g sc sc1 true (m ((c : Thread nD τ).loc main_arg0)) (m ((c : Thread nD τ).loc main_arg1)) (m ((c : Thread nD τ).loc main_arg2)) (m ((c : Thread nD τ).loc main_arg3)) (m ((c : Thread nD τ).loc main_arg4)) := by
  have h := (W2_arr m ρ c 5).trans (region0_value (V1 m ρ) c)
  rw [V1_v24, V1_arg0, V1_v25, V1_v26, V1_v27] at h
  exact h.trans (Cert.Sage.kLayer_eq_layer g sc sc1 true _ _ _ _ _)

/-- The second region's output array is the second layer of the first region's output. -/
theorem layer2 (c : Dev nD) : V4 m ρ c main_v45 = Cert.Sage.layer g sc sc1 true (V2 m ρ c main_v28) (m ((c : Thread nD τ).loc main_arg1)) (m ((c : Thread nD τ).loc main_arg5)) (m ((c : Thread nD τ).loc main_arg6)) (m ((c : Thread nD τ).loc main_arg7)) := by
  have h := (W4_arr m ρ c 5).trans (region1_value (V3 m ρ) c)
  rw [V3_v41, V3_v28, V3_v42, V3_v43, V3_v44] at h
  exact h.trans (Cert.Sage.kLayer_eq_layer g sc sc1 true _ _ _ _ _)

/-- The result array is the third layer, without the maximum, of the second region's output. -/
theorem layer3 (c : Dev nD) : W6 m ρ c (Proc.devRef .tc main_v62) = Cert.Sage.layer g sc sc1 false (V4 m ρ c main_v45) (m ((c : Thread nD τ).loc main_arg1)) (m ((c : Thread nD τ).loc main_arg8)) (m ((c : Thread nD τ).loc main_arg9)) (m ((c : Thread nD τ).loc main_arg10)) := by
  have h := (W6_arr m ρ c 5).trans (region2_value (V5 m ρ) c)
  rw [V5_v58, V5_v45, V5_v59, V5_v60, V5_v61] at h
  exact h.trans (Cert.Sage.kLayer_eq_layer g sc sc1 false _ _ _ _ _)

/-- The result array is the three layers of the argument arrays. -/
theorem result (c : Dev nD) : W6 m ρ c (Proc.devRef .tc main_v62)
    = Cert.Sage.net g sc sc1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [layer3, layer2, layer1]; rfl

end Cert.KernelIdeal.NetValue

end
-- ==== Proof.RefIsSpec.lean ====
/-
  The reference program's result is the three stacked layers of the specification.

  The reference computes each layer with the host operations the specification names: the aggregation (a gather of
  the source rows scatter-added at the destinations), the count of incoming edges raised to at least one and repeated
  along the feature axis, their quotient, a product with the transposed first weight matrix, the bias repeated along
  the node axis, a product of the features with the transposed second weight matrix, and the two sums; the first two
  layers end with the maximum against an array of zeros. `refPre` is that chain over an arbitrary feature array.
  Read at an entry `(i, j)`, each product is the sum over `k` of the left operand at `(i, k)` times the right at
  `(k, j)`, the quotient is entrywise, the repeated count reads the count at `i` and the repeated bias reads the bias
  at `j`: this is the specification's entry, so the chain is the specification's layer (with or without the maximum).
  Each of the program's three layer results is the chain applied to the previous layer's result, by unfolding names.
-/
import proofs.«127042_j63058709840617_1_alg».proof.Proof.Spec
import proofs.«127042_j63058709840617_1_alg».proof.Proof.LibMatmul
import proofs.«127042_j63058709840617_1_alg».proof.Proof.Gen.ReferenceIdeal.Read

open scoped BigOperators

noncomputable section

namespace Cert.RefSpec

open Idealize.ShloMosaic Idealize.ShloMosaic.ValueIdx Cert.Sage Cert.MatOps

/-- The gather of rows, the scatter-add of rows and the scatter-add of scalars the reference applies. -/
abbrev g := Cert.ReferenceIdeal.gather_S100000x128_S640000x1_S640000x128_1_0_n_n_0_1_1128
abbrev sc := Cert.ReferenceIdeal.scatter_S100000x128_S640000x1_S640000x128_1_0_0_1
abbrev sc1 := Cert.ReferenceIdeal.scatter_S100000_S640000x1_S640000_n_0_0_1

/-- The reference's contraction: axis 1 of the left operand against axis 0 of the right one, no batch axis. -/
abbrev dot := Cert.ReferenceIdeal.dot_S100000x128_S128x128_S100000x128_1_0_0_1_n_n

theorem dot_eq_plain : dot = DotDims.plain 100000 128 128 := rfl

/-- The array of zeros the maximum is taken against. -/
def zeroND : FVec Ideal SND .f32 := broadcastInDim SND ![] (by decide) (constant (F := Ideal) S0 .f32 0x00000000#32)

theorem zeroND_apply (idx : SND.Idx) : zeroND idx = Ideal.ofBits .f32 0x00000000#32 := by
  unfold zeroND
  rw [broadcastInDim_scalar_apply]
  rfl

/-- The bias repeated along the node axis: entry `(i, j)` is `b(j)`. -/
def rowOf (b : FVec Ideal SD .f32) : FVec Ideal SND .f32 :=
  broadcastInDim SND ![0, 1] (by decide) (broadcastInDim S1D ![1] (by decide) b)

theorem rowOf_apply (b : FVec Ideal SD .f32) (i : Fin 100000) (j : Fin 128) : rowOf b (ix2 i j) = b (ix1 j) := by
  unfold rowOf
  rw [broadcastInDim_apply ![0, 1] _ _ (ix2 i j) (ix2 (0 : Fin 1) j) (fun ax => ?_),
    broadcastInDim_apply ![1] _ b (ix2 (0 : Fin 1) j) (ix1 j) (fun ax => ?_)]
  · match ax with
    | ⟨0, _⟩ => rfl
  · match ax with
    | ⟨0, _⟩ => rfl
    | ⟨1, _⟩ => rfl

/-- One layer as the reference computes it, before the maximum with zero. -/
def refPre (h : FVec Ideal SND .f32) (e : IVec S2E 32) (Wl : FVec Ideal SDD .f32) (b : FVec Ideal SD .f32)
    (Wr : FVec Ideal SDD .f32) : FVec Ideal SND .f32 :=
  addf
    (addf
      (Host.dotGeneral (F := Ideal) dot none (Host.divf (F := Ideal) (agg g sc h e) (colOf (cnt sc1 e)))
        (tr Wl))
      (rowOf b))
    (Host.dotGeneral (F := Ideal) dot none h (tr Wr))

theorem refPre_apply (h : FVec Ideal SND .f32) (e : IVec S2E 32) (Wl : FVec Ideal SDD .f32) (b : FVec Ideal SD .f32)
    (Wr : FVec Ideal SDD .f32) (i : Fin 100000) (j : Fin 128) :
    refPre h e Wl b Wr (ix2 i j)
      = (∑ k : Fin 128, Ideal.div (agg g sc h e (ix2 i k)) (cnt sc1 e (ix1 i)) * tr Wl (ix2 k j)
          + b (ix1 j))
        + ∑ k : Fin 128, h (ix2 i k) * tr Wr (ix2 k j) := by
  unfold refPre
  rw [addf_apply, addf_apply, rowOf_apply, dot_eq_plain, dotGeneral_plain_apply, dotGeneral_plain_apply]
  simp only [hostDivf_apply, colOf_apply]

theorem post_false (x : EReal) : post false x = x := rfl
theorem post_true (x : EReal) : post true x = max x (Ideal.ofBits .f32 0x00000000#32) := rfl

/-- Without the maximum, the chain is the specification's layer. -/
theorem refPre_eq_layer (h : FVec Ideal SND .f32) (e : IVec S2E 32) (Wl : FVec Ideal SDD .f32) (b : FVec Ideal SD .f32)
    (Wr : FVec Ideal SDD .f32) : refPre h e Wl b Wr = layer g sc sc1 false h e Wl b Wr := by
  funext idx
  obtain ⟨i, j, rfl⟩ : ∃ (i : Fin 100000) (j : Fin 128), idx = ix2 i j := ⟨idx 0, idx 1, eq_ix2 idx⟩
  unfold layer
  rw [sage_apply, refPre_apply]
  unfold sageAt
  rw [post_false]

/-- With the maximum against zeros, the chain is the specification's layer with the maximum. -/
theorem refPre_max_eq_layer (h : FVec Ideal SND .f32) (e : IVec S2E 32) (Wl : FVec Ideal SDD .f32) (b : FVec Ideal SD .f32)
    (Wr : FVec Ideal SDD .f32) : maximumf (refPre h e Wl b Wr) zeroND = layer g sc sc1 true h e Wl b Wr := by
  funext idx
  obtain ⟨i, j, rfl⟩ : ∃ (i : Fin 100000) (j : Fin 128), idx = ix2 i j := ⟨idx 0, idx 1, eq_ix2 idx⟩
  unfold layer
  rw [sage_apply, maximumf_apply, refPre_apply, zeroND_apply]
  unfold sageAt
  rw [post_true]

/-! ## The program's three layer results -/

open Cert.ReferenceIdeal.Read

/-- The first layer's result is the chain over the node features, with the maximum. -/
theorem v31_eq (x0 : FVec Ideal SND .f32) (x1 : IVec S2E 32) (x2 : FVec Ideal SDD .f32) (x3 : FVec Ideal SD .f32)
    (x4 : FVec Ideal SDD .f32) :
    val_main_v31 (F := Ideal) x0 x1 x2 x3 x4 = maximumf (refPre x0 x1 x2 x3 x4) zeroND := rfl

/-- The second layer's result is the chain over the first layer's result, with the maximum. -/
theorem v59_eq (x0 : FVec Ideal SND .f32) (x1 : IVec S2E 32) (x2 : FVec Ideal SDD .f32) (x3 : FVec Ideal SD .f32)
    (x4 x5 : FVec Ideal SDD .f32) (x6 : FVec Ideal SD .f32) (x7 : FVec Ideal SDD .f32) :
    val_main_v59 (F := Ideal) x0 x1 x2 x3 x4 x5 x6 x7
      = maximumf (refPre (val_main_v31 (F := Ideal) x0 x1 x2 x3 x4) x1 x5 x6 x7) zeroND := rfl

/-- The third layer's result is the chain over the second layer's result, without the maximum. -/
theorem v86_eq (x0 : FVec Ideal SND .f32) (x1 : IVec S2E 32) (x2 : FVec Ideal SDD .f32) (x3 : FVec Ideal SD .f32)
    (x4 x5 : FVec Ideal SDD .f32) (x6 : FVec Ideal SD .f32) (x7 x8 : FVec Ideal SDD .f32) (x9 : FVec Ideal SD .f32)
    (x10 : FVec Ideal SDD .f32) :
    val_main_v86 (F := Ideal) x0 x1 x2 x3 x4 x5 x6 x7 x8 x9 x10
      = refPre (val_main_v59 (F := Ideal) x0 x1 x2 x3 x4 x5 x6 x7) x1 x8 x9 x10 := rfl

/-- The reference program's result is the specification's three layers. -/
theorem ref_is_net (x0 : FVec Ideal Cert.Sage.SND .f32) (x1 : IVec Cert.Sage.S2E 32) (x2 : FVec Ideal Cert.Sage.SDD .f32)
    (x3 : FVec Ideal Cert.Sage.SD .f32) (x4 x5 : FVec Ideal Cert.Sage.SDD .f32) (x6 : FVec Ideal Cert.Sage.SD .f32)
    (x7 x8 : FVec Ideal Cert.Sage.SDD .f32) (x9 : FVec Ideal Cert.Sage.SD .f32) (x10 : FVec Ideal Cert.Sage.SDD .f32) :
    Cert.ReferenceIdeal.Read.val_main_v86 (F := Ideal) x0 x1 x2 x3 x4 x5 x6 x7 x8 x9 x10
      = Cert.Sage.net g sc sc1 x0 x1 x2 x3 x4 x5 x6 x7 x8 x9 x10 := by
  unfold Cert.Sage.net
  rw [v86_eq, refPre_eq_layer, v59_eq, refPre_max_eq_layer, v31_eq, refPre_max_eq_layer]

end Cert.RefSpec

end
-- ==== Proof.lean ====
/-
  The certificate of three stacked mean-aggregation graph layers: a kernel program of three pallas regions among host
  stretches against a host-only reference.

  Frames. Each of the kernel's two printings runs, faults nowhere and leaves its arguments as launched: the generated
  frame over the program's six segments. The reference's frame is its generated run with the result dropped.

  Preservation. The idealization rewrote no operation, so there is nothing to restate.

  Equality at the ideal values. Both programs end with the result array at ONE function of the argument arrays,
  `Cert.Sage.net` (Proof/Spec.lean): three layers, each `(Σ_k (S(i,k)/c(i))·Wl(j,k) + b(j)) + Σ_k h(i,k)·Wr(j,k)` with `S` the
  sum of the source rows over the edges into node `i` and `c` the number of those edges raised to one, the first two
  followed by the maximum with zero. The reference computes exactly this, stage by stage (Proof/RefIsSpec.lean). The
  kernel multiplies `S` by the reciprocal `1/c(i)` on the host and adds the bias after the second product inside the
  region; on the extended reals dividing by a nonzero `c` is multiplying by its inverse, a count raised to one is not
  zero, and a sum of three terms does not depend on their order, so each region's output is the same layer
  (Proof/Spec.lean `kLayer_eq_layer`, Proof/Region0..2.lean, Proof/HostChain.lean, Proof/KernelValue.lean). The changes of float
  format on the way into the matrix unit are the identity at the ideal values. The gather and the two scatter-adds are
  the same host operations of the same arrays in both programs and are never opened; the precondition (finite inputs)
  is not used.
-/
import proofs.«127042_j63058709840617_1_alg».proof.Defs
import proofs.«127042_j63058709840617_1_alg».proof.Proof.Gen.Kernel
import proofs.«127042_j63058709840617_1_alg».proof.Proof.Gen.Kernel.Skeleton
import proofs.«127042_j63058709840617_1_alg».proof.Proof.Gen.Kernel.Launch
import proofs.«127042_j63058709840617_1_alg».proof.Proof.Gen.Kernel.Points
import proofs.«127042_j63058709840617_1_alg».proof.Proof.Gen.Kernel.Frame
import proofs.«127042_j63058709840617_1_alg».proof.Proof.Gen.KernelIdeal
import proofs.«127042_j63058709840617_1_alg».proof.Proof.Gen.KernelIdeal.Skeleton
import proofs.«127042_j63058709840617_1_alg».proof.Proof.Gen.KernelIdeal.Launch
import proofs.«127042_j63058709840617_1_alg».proof.Proof.Gen.KernelIdeal.Points
import proofs.«127042_j63058709840617_1_alg».proof.Proof.Gen.KernelIdeal.Frame
import proofs.«127042_j63058709840617_1_alg».proof.Proof.Gen.ReferenceIdeal
import proofs.«127042_j63058709840617_1_alg».proof.Proof.Gen.Pre_finite_inputs
import proofs.«127042_j63058709840617_1_alg».proof.Proof.Gen.ReferenceIdeal.Run
import proofs.«127042_j63058709840617_1_alg».proof.Proof.Gen.ReferenceIdeal.Read
import proofs.«127042_j63058709840617_1_alg».proof.Proof.Spec
import proofs.«127042_j63058709840617_1_alg».proof.Proof.KernelRun
import proofs.«127042_j63058709840617_1_alg».proof.Proof.KernelValue
import proofs.«127042_j63058709840617_1_alg».proof.Proof.RefIsSpec
import Idealize.ShloMosaic.Adequacy
import Idealize.ShloMosaic.Init

set_option maxRecDepth 16384

noncomputable section

namespace Cert.Proof

open Idealize.ShloMosaic Idealize.SL.Sem

/-- The two programs' gather and scatter shape records have the same fields. -/
theorem recs_g : Cert.RefSpec.g = Cert.KernelIdeal.Chain.g := rfl
theorem recs_sc : Cert.RefSpec.sc = Cert.KernelIdeal.Chain.sc := rfl
theorem recs_sc1 : Cert.RefSpec.sc1 = Cert.KernelIdeal.Chain.sc1 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization's ledger is empty. -/
theorem preserves : Cert.preserves_Kernel_KernelIdeal := trivial

/-- Both runs end with the result at the three layers of the argument arrays, which agree. -/
theorem algebraic : Cert.algebraic_KernelIdeal_ReferenceIdeal := by
  intro m ρ m' ρ' _ hagree
  refine ⟨fun c => Cert.Sage.net Cert.KernelIdeal.Chain.g Cert.KernelIdeal.Chain.sc Cert.KernelIdeal.Chain.sc1
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.NetValue.result m ρ c), (h c).2⟩)
      (Cert.KernelIdeal.NamedRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v86_eq, h0, h1, h2, h3, h4, h5, h6, h7, h8, h9, h10]
    exact Cert.RefSpec.ref_is_net _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
